-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S16x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x640000 32) (main_arg2 : FVec F S640000x16 .f32) (main_arg3 : FVec F S128x128 .f32) (main_arg4 : FVec F S128 .f32) (main_arg5 : FVec F S16x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S1x640000 : Shape := ⟨2, ![1, 640000]⟩
abbrev S640000 : Shape := ⟨1, ![640000]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x16 : Shape := ⟨2, ![5000, 16]⟩

abbrev nBuf : Space → Nat
  | .hbm => 35
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x16, .f32⟩
  | .hbm, ⟨3, _⟩ => ⟨S128x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S100000x128, .bf16⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S640000x128, .f32⟩
  | .hbm, ⟨29, _⟩ => ⟨S_, .f32⟩
  | .hbm, ⟨30, _⟩ => ⟨S100000x128, .f32⟩
  | .hbm, ⟨31, _⟩ => ⟨S640000x1, .i32⟩
  | .hbm, ⟨32, _⟩ => ⟨S100000x128, .f32⟩
  | .hbm, ⟨33, _⟩ => ⟨S1x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x16, .f32⟩
  | .local _ .vmem, ⟨8, _⟩ => ⟨S5000x16, .f32⟩
  | .local _ .vmem, ⟨9, _⟩ => ⟨S1x128, .f32⟩
  | .local _ .vmem, ⟨10, _⟩ => ⟨S16x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  shapeCasts_S5000x128_S5000x128 : S5000x128.ShapeCasts S5000x128
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  dot_S5000x16_S16x128_S5000x128_1_0_0_1_n_n_wf : DotDims.WF S5000x16 S16x128 S5000x128 [1] [0] [0] [1] [] []
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .bf16 = 32 ∨ (Rect.block (s := S640000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S640000x16.size a
  hwx1_1 : ∀ i : grid1.Coords, EltTy.bits .f32 = 32 ∨ (Rect.block (s := S640000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S640000x128.size a
  hwx1_7 : ∀ i : grid1.Coords, EltTy.bits .f32 = 32 ∨ (Rect.block (s := S640000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x16 : Shape := ⟨2, ![640000, 16]⟩
abbrev S128x128 : Shape := ⟨2, ![128, 128]⟩
abbrev S128 : Shape := ⟨1, ![128]⟩
abbrev S16x128 : Shape := ⟨2, ![16, 128]⟩
abbrev S1x640000 : Shape := ⟨2, ![1, 640000]⟩
abbrev S640000 : Shape := ⟨1, ![640000]⟩
abbrev S640000x128 : Shape := ⟨2, ![640000, 128]⟩
abbrev S1x128 : Shape := ⟨2, ![1, 128]⟩
abbrev S_ : Shape := ⟨0, ![]⟩
abbrev S640000x1 : Shape := ⟨2, ![640000, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x16, .f32⟩
  | .hbm, ⟨3, _⟩ => ⟨S128x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S640000x128, .f32⟩
  | .hbm, ⟨16, _⟩ => ⟨S1x128, .f32⟩
  | .hbm, ⟨17, _⟩ => ⟨S640000x128, .f32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S640000x128, .f32⟩
  | .hbm, ⟨23, _⟩ => ⟨S640000x128, .f32⟩
  | .hbm, ⟨24, _⟩ => ⟨S_, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S640000x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S640000x16_S16x128_S640000x128_1_0_0_1_n_n_wf : DotDims.WF S640000x16 S16x128 S640000x128 [1] [0] [0] [1] [] []
  dot_S640000x128_S128x128_S640000x128_1_0_0_1_n_n_wf : DotDims.WF S640000x128 S128x128 S640000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  The program is six segments: host operations, the node-side projection, host operations (the row gather), the
  edge stage, host operations (the segment sum), the final linear layer.  The buffer contents at each boundary are
  a fold from the launch memory.  Every weakly fair execution terminates with every unscoped buffer at the last
  boundary's contents; in particular the result array is the last boundary's contents at the result's buffer,
  and each argument array is as launched.
-/
import proofs.«168823_j89567247990894_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Result

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«168823_j89567247990894_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«168823_j89567247990894_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«168823_j89567247990894_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«168823_j89567247990894_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«168823_j89567247990894_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.Layers.lean ====
/-
  The three stages of the message-passing layer as functions of whole arrays, at the ideal values.

  * the node-side projection: the product of the node features and the first weight;
  * the edge stage on `R` rows: `(xp + b1) * (silu (rbf · Wf1 + bf1) · Wf2 + bf2)`, the biases arriving as one-row arrays,
    where `silu y = y * logistic y`;
  * the final linear layer: a dense layer whose bias arrives as one row.
  Each body of the program computes one of these on a block of 5000 rows; the format changes in the bodies are the
  identity at the ideal values.  Every row of a stage's result depends on the same row of its row-indexed operands and
  on nothing else of them, so a block of rows of the stage on whole arrays is the stage on the blocks.
-/
import proofs.«168823_j89567247990894_2_alg».proof.Proof.LibProdRows
import proofs.«168823_j89567247990894_2_alg».proof.Proof.LibRowBias
import proofs.«168823_j89567247990894_2_alg».proof.Proof.Gen.KernelIdeal.Skeleton

noncomputable section

open scoped BigOperators

namespace Cert.Layers

open Idealize.ShloMosaic Idealize.ShloMosaic.ValueIdx Cert.DenseRow Cert.RowBias Cert.ProdRows Cert.PlainDot
open Cert.KernelIdeal.RegionValue (prodArr prodArr_apply)

/-- `silu` entry by entry: `y * logistic y`. -/
def siluArr {s : Shape} (y : s.Idx → EReal) : s.Idx → EReal := fun i => y i * Ideal.logistic (y i)

/-- A one-row array added to every row. -/
def addRow {R N : ℕ} (x : (⟨2, ![R, N]⟩ : Shape).Idx → EReal) (v : (⟨2, ![1, N]⟩ : Shape).Idx → EReal) :
    (⟨2, ![R, N]⟩ : Shape).Idx → EReal := fun i => x i + v (ix2 (0 : Fin 1) (i 1))

/-- Two arrays multiplied entry by entry. -/
def mulArr {s : Shape} (x y : s.Idx → EReal) : s.Idx → EReal := fun i => x i * y i

/-- The filter network on `R` rows of radial features: `silu (rbf · Wf1 + bf1) · Wf2 + bf2`. -/
def filterArr {R : ℕ} (rbf : (⟨2, ![R, 16]⟩ : Shape).Idx → EReal) (wf1 : (⟨2, ![16, 128]⟩ : Shape).Idx → EReal)
    (bf1 : (⟨1, ![128]⟩ : Shape).Idx → EReal) (wf2 : (⟨2, ![128, 128]⟩ : Shape).Idx → EReal)
    (bf2 : (⟨1, ![128]⟩ : Shape).Idx → EReal) : (⟨2, ![R, 128]⟩ : Shape).Idx → EReal :=
  layerArr (siluArr (layerArr rbf wf1 bf1)) wf2 bf2

/-- The edge stage on `R` rows: the projected source features plus their bias, times the filter. -/
def edgeArr {R : ℕ} (xp : (⟨2, ![R, 128]⟩ : Shape).Idx → EReal) (rbf : (⟨2, ![R, 16]⟩ : Shape).Idx → EReal)
    (b1 : (⟨2, ![1, 128]⟩ : Shape).Idx → EReal) (wf1 : (⟨2, ![16, 128]⟩ : Shape).Idx → EReal)
    (bf1 : (⟨2, ![1, 128]⟩ : Shape).Idx → EReal) (wf2 : (⟨2, ![128, 128]⟩ : Shape).Idx → EReal)
    (bf2 : (⟨2, ![1, 128]⟩ : Shape).Idx → EReal) : (⟨2, ![R, 128]⟩ : Shape).Idx → EReal :=
  mulArr (addRow xp b1) (filterArr rbf wf1 (unrow bf1) wf2 (unrow bf2))

theorem siluArr_rows {R R' N : ℕ} (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    siluArr y (ix2 p c) = siluArr Y (ix2 p' c) := by
  show y (ix2 p c) * Ideal.logistic (y (ix2 p c)) = Y (ix2 p' c) * Ideal.logistic (Y (ix2 p' c))
  rw [h c]

/-- Row `p` of the filter depends on row `p` of the radial features only. -/
theorem filterArr_rows {R R' : ℕ} (rbf : (⟨2, ![R, 16]⟩ : Shape).Idx → EReal) (RBF : (⟨2, ![R', 16]⟩ : Shape).Idx → EReal)
    (wf1 : (⟨2, ![16, 128]⟩ : Shape).Idx → EReal) (bf1 : (⟨1, ![128]⟩ : Shape).Idx → EReal)
    (wf2 : (⟨2, ![128, 128]⟩ : Shape).Idx → EReal) (bf2 : (⟨1, ![128]⟩ : Shape).Idx → EReal) (p : Fin R) (p' : Fin R')
    (h : ∀ k : Fin 16, rbf (ix2 p k) = RBF (ix2 p' k)) (c : Fin 128) :
    filterArr rbf wf1 bf1 wf2 bf2 (ix2 p c) = filterArr RBF wf1 bf1 wf2 bf2 (ix2 p' c) :=
  layerArr_rows _ _ wf2 bf2 p p' (fun k => siluArr_rows _ _ p p' (fun j => layerArr_rows rbf RBF wf1 bf1 p p' h j) k) c

/-- Row `p` of the edge stage depends on row `p` of the projected features and of the radial features only. -/
theorem edgeArr_rows {R R' : ℕ} (xp : (⟨2, ![R, 128]⟩ : Shape).Idx → EReal) (XP : (⟨2, ![R', 128]⟩ : Shape).Idx → EReal)
    (rbf : (⟨2, ![R, 16]⟩ : Shape).Idx → EReal) (RBF : (⟨2, ![R', 16]⟩ : Shape).Idx → EReal)
    (b1 : (⟨2, ![1, 128]⟩ : Shape).Idx → EReal) (wf1 : (⟨2, ![16, 128]⟩ : Shape).Idx → EReal)
    (bf1 : (⟨2, ![1, 128]⟩ : Shape).Idx → EReal) (wf2 : (⟨2, ![128, 128]⟩ : Shape).Idx → EReal)
    (bf2 : (⟨2, ![1, 128]⟩ : Shape).Idx → EReal) (p : Fin R) (p' : Fin R')
    (hx : ∀ k : Fin 128, xp (ix2 p k) = XP (ix2 p' k)) (hr : ∀ k : Fin 16, rbf (ix2 p k) = RBF (ix2 p' k)) (c : Fin 128) :
    edgeArr xp rbf b1 wf1 bf1 wf2 bf2 (ix2 p c) = edgeArr XP RBF b1 wf1 bf1 wf2 bf2 (ix2 p' c) := by
  show (xp (ix2 p c) + b1 (ix2 (0 : Fin 1) c)) * filterArr rbf wf1 (unrow bf1) wf2 (unrow bf2) (ix2 p c)
    = (XP (ix2 p' c) + b1 (ix2 (0 : Fin 1) c)) * filterArr RBF wf1 (unrow bf1) wf2 (unrow bf2) (ix2 p' c)
  rw [hx c, filterArr_rows rbf RBF wf1 (unrow bf1) wf2 (unrow bf2) p p' hr c]

/-! ## A block of rows of a stage is the stage on the block

Stated at indices given by the values of their coordinates: the block's index `y` and the array's index `i` name the same
column, and `i`'s row is `y`'s row moved down by `off`; a row-indexed operand's block is the operand read `off` rows
down; the other operands are the same arrays. -/

theorem prodArr_block {R R' K N : ℕ} (a : (⟨2, ![R, K]⟩ : Shape).Idx → EReal) (A : (⟨2, ![R', K]⟩ : Shape).Idx → EReal)
    (w : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → a u = A z) :
    prodArr a w y = prodArr A w i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  exact prodArr_rows a A w p p' (fun k => ha (ix2 p k) (ix2 p' k) hi0 rfl) c'

theorem layerArr_block {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → a u = A z) :
    layerArr a w b y = layerArr A w b i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  exact layerArr_rows a A w b p p' (fun k => ha (ix2 p k) (ix2 p' k) hi0 rfl) c'

theorem edgeArr_block {R R' : ℕ} (xp : (⟨2, ![R, 128]⟩ : Shape).Idx → EReal) (XP : (⟨2, ![R', 128]⟩ : Shape).Idx → EReal)
    (rbf : (⟨2, ![R, 16]⟩ : Shape).Idx → EReal) (RBF : (⟨2, ![R', 16]⟩ : Shape).Idx → EReal)
    (b1 : (⟨2, ![1, 128]⟩ : Shape).Idx → EReal) (wf1 : (⟨2, ![16, 128]⟩ : Shape).Idx → EReal)
    (bf1 : (⟨2, ![1, 128]⟩ : Shape).Idx → EReal) (wf2 : (⟨2, ![128, 128]⟩ : Shape).Idx → EReal)
    (bf2 : (⟨2, ![1, 128]⟩ : Shape).Idx → EReal) (off : ℕ)
    (y : (⟨2, ![R, 128]⟩ : Shape).Idx) (i : (⟨2, ![R', 128]⟩ : Shape).Idx)
    (hi0 : (i 0).val = off + (y 0).val) (hi1 : (i 1).val = (y 1).val)
    (hx : ∀ (u : (⟨2, ![R, 128]⟩ : Shape).Idx) (z : (⟨2, ![R', 128]⟩ : Shape).Idx),
      (z 0).val = off + (u 0).val → (z 1).val = (u 1).val → xp u = XP z)
    (hr : ∀ (u : (⟨2, ![R, 16]⟩ : Shape).Idx) (z : (⟨2, ![R', 16]⟩ : Shape).Idx),
      (z 0).val = off + (u 0).val → (z 1).val = (u 1).val → rbf u = RBF z) :
    edgeArr xp rbf b1 wf1 bf1 wf2 bf2 y = edgeArr XP RBF b1 wf1 bf1 wf2 bf2 i := by
  obtain ⟨p, c, rfl⟩ : ∃ (p : Fin R) (c : Fin 128), y = ix2 p c := ⟨y 0, y 1, eq_ix2 y⟩
  obtain ⟨p', c', rfl⟩ : ∃ (p' : Fin R') (c' : Fin 128), i = ix2 p' c' := ⟨i 0, i 1, eq_ix2 i⟩
  obtain rfl : c' = c := Fin.ext hi1
  exact edgeArr_rows xp XP rbf RBF b1 wf1 bf1 wf2 bf2 p p' (fun k => hx (ix2 p k) (ix2 p' k) hi0 rfl)
    (fun k => hr (ix2 p k) (ix2 p' k) hi0 rfl) c'

/-! ## The bodies' arithmetic is these stages on a block of 5000 rows -/

open Cert.KernelIdeal Cert.KernelIdeal.Gen

/-- The projection body: the product of its two blocks. -/
theorem pay0 (x0 : Vec Ideal S5000x128 .f32) (x1 : Vec Ideal S128x128 .f32) :
    k0_pay1 (F := Ideal) x0 x1 = prodArr (R := 5000) (K := 128) (N := 128) x0 x1 := by
  unfold k0_pay1
  exact kprod (R := 5000) (K := 128) (N := 128) (φ₁ := .bf16) (φ₂ := .bf16) none x0 x1

/-- A matrix product into the zero accumulator of operands narrowed to the short float format, plus a one-row bias
    cast to itself and broadcast over the rows: the dense layer with that row as its bias. -/
theorem klayer_narrow {R K N : ℕ} (a : FVec Ideal ⟨2, ![R, K]⟩ .f32) (w : FVec Ideal ⟨2, ![K, N]⟩ .f32)
    (v : FVec Ideal ⟨2, ![1, N]⟩ .f32) (d : DotDims ⟨2, ![R, K]⟩ ⟨2, ![K, N]⟩ ⟨2, ![R, N]⟩) (hd : d = DotDims.plain R K N)
    (h1 h2 : FTy.bits .bf16 < FTy.bits .f32)
    (hc : (⟨2, ![1, N]⟩ : Shape).ShapeCasts ⟨2, ![1, N]⟩) (hb : (⟨2, ![1, N]⟩ : Shape).Broadcasts ⟨2, ![R, N]⟩) :
    addf (matmul d none (truncf .bf16 a h1) (truncf .bf16 w h2) (constant ⟨2, ![R, N]⟩ .f32 0x00000000#32))
        (broadcastTo ⟨2, ![R, N]⟩ (shapeCast ⟨2, ![1, N]⟩ v hc) hb)
      = layerArr a w (unrow v) := by
  subst hd
  exact klayer1Arr (DotDims.plain R K N) rfl rfl (lhs_at R K N) (rhs_at R K N) none (φ₁ := .bf16) (φ₂ := .bf16) a w v hc hb

/-- The same with the one-row bias broadcast as it is. -/
theorem klayer_narrow' {R K N : ℕ} (a : FVec Ideal ⟨2, ![R, K]⟩ .f32) (w : FVec Ideal ⟨2, ![K, N]⟩ .f32)
    (v : FVec Ideal ⟨2, ![1, N]⟩ .f32) (d : DotDims ⟨2, ![R, K]⟩ ⟨2, ![K, N]⟩ ⟨2, ![R, N]⟩) (hd : d = DotDims.plain R K N)
    (h1 h2 : FTy.bits .bf16 < FTy.bits .f32) (hb : (⟨2, ![1, N]⟩ : Shape).Broadcasts ⟨2, ![R, N]⟩) :
    addf (matmul d none (truncf .bf16 a h1) (truncf .bf16 w h2) (constant ⟨2, ![R, N]⟩ .f32 0x00000000#32))
        (broadcastTo ⟨2, ![R, N]⟩ v hb)
      = layerArr a w (unrow v) := by
  have h := klayer_narrow a w v d hd h1 h2 rfl hb
  rwa [shapeCast_self] at h

/-- The final body: the dense layer of its block with the one-row bias. -/
theorem pay2 (x0 : Vec Ideal S5000x128 .f32) (x1 : Vec Ideal S128x128 .f32) (x2 : Vec Ideal S1x128 .f32) :
    k2_pay1 (F := Ideal) x0 x1 x2 = layerArr (R := 5000) (K := 128) (N := 128) x0 x1 (unrow x2) := by
  unfold k2_pay1
  simp only [shapeCast_self]
  exact klayer_narrow' (R := 5000) (K := 128) (N := 128) x0 x1 x2 dot_S5000x128_S128x128_S5000x128_1_0_0_1_n_n rfl _ _ _

/-- The sum of the projected block widened to the long format and its one-row bias. -/
theorem addRow_eq (v0 : Vec Ideal S5000x128 .bf16) (v22 : Vec Ideal S1x128 .f32) (h : FTy.bits .bf16 < FTy.bits .f32)
    (hb : S1x128.Broadcasts S5000x128) :
    addf (F := Ideal) (extf .f32 v0 h) (broadcastTo S5000x128 v22 hb) = addRow (R := 5000) (N := 128) v0 v22 := by
  funext i
  obtain ⟨p, c, rfl⟩ : ∃ (p : Fin 5000) (c : Fin 128), i = ix2 p c := ⟨i 0, i 1, eq_ix2 i⟩
  show v0 (ix2 p c) + broadcastTo S5000x128 v22 hb (ix2 p c) = _
  rw [broadcastTo_1b_ab_apply]
  rfl

/-- The edge body: the edge stage of its blocks. -/
theorem pay1 (v0 : Vec Ideal S5000x128 .bf16) (v3 : Vec Ideal S5000x16 .f32) (v5 : Vec Ideal S16x128 .f32)
    (v7 : Vec Ideal S128x128 .f32) (v10 v18 v22 : Vec Ideal S1x128 .f32) :
    k1_pay1 (F := Ideal) v0 v3 v5 v7 v10 v18 v22 = edgeArr (R := 5000) v0 v3 v22 v5 v10 v7 v18 := by
  unfold k1_pay1
  simp only [shapeCast_self]
  rw [klayer_narrow' (R := 5000) (K := 16) (N := 128) v3 v5 v10 dot_S5000x16_S16x128_S5000x128_1_0_0_1_n_n rfl _ _ _]
  rw [klayer_narrow' (R := 5000) (K := 128) (N := 128) _ v7 v18 dot_S5000x128_S128x128_S5000x128_1_0_0_1_n_n rfl _ _ _]
  rw [addRow_eq]
  rfl

end Cert.Layers

end
-- ==== Proof.Stage0.lean ====
/-
  The node-side projection as a function of whole arrays.

  The first region walks twenty blocks of 5000 rows of the node features; at each it multiplies the block by the whole
  first weight and writes the product back to the same rows of its output.  Row `r` of the output is therefore row `r`
  of the product of the whole arrays: the block at point `t` holds rows `5000 t, …, 5000 t + 4999`, the point covering
  row `r` is `r / 5000`, and a row of a product depends on the same row of the left operand only.  Stated for any
  contents `V` of the buffers at the region's entry.
-/
import proofs.«168823_j89567247990894_2_alg».proof.Proof.Layers
import proofs.«168823_j89567247990894_2_alg».proof.Proof.Gen.KernelIdeal.Frame

set_option maxRecDepth 16384

noncomputable section

open scoped BigOperators

namespace Cert.KernelIdeal.Stage0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers
open Cert.KernelIdeal.RegionValue (prodArr)

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the features' and the output's blocks are block `t` of the rows, the weight's block is
    the whole weight. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is the features read `5000 t` rows down. -/
theorem blk_x (c : Dev nD) (t : Fin cfg0.N) (u : S5000x128.Idx) (z : S100000x128.Idx)
    (h0 : (z 0).val = 5000 * t.val + (u 0).val) (h1 : (z 1).val = (u 1).val) :
    iblk0 V c 0 t u = V c main_arg0 z := by
  obtain ⟨e0, e1, -⟩ := idx t
  show V c main_arg0 (((cfg0.win 0).blk t).view.emb u) = V c main_arg0 z
  congr 1
  funext a; apply Fin.ext
  match a with
  | ⟨0, _⟩ => show win0_0.index t (0 : Fin 2) * 5000 + 1 * (u 0).val = (z 0).val; omega
  | ⟨1, _⟩ => show win0_0.index t (1 : Fin 2) * 128 + 1 * (u 1).val = (z 1).val; omega

/-- The weight's block at every point is the whole weight. -/
theorem blk_w (c : Dev nD) (t : Fin cfg0.N) : iblk0 V c 1 t = V c main_arg3 := by
  obtain ⟨-, -, e2, e3, -⟩ := idx t
  funext u
  show V c main_arg3 (((cfg0.win 1).blk t).view.emb u) = V c main_arg3 u
  congr 1
  funext a; apply Fin.ext
  match a with
  | ⟨0, _⟩ => show win0_1.index t (0 : Fin 2) * 128 + 1 * (u 0).val = (u 0).val; omega
  | ⟨1, _⟩ => show win0_1.index t (1 : Fin 2) * 128 + 1 * (u 1).val = (u 1).val; omega

/-- What point `t` writes back is block `t` of the product of the whole arrays. -/
theorem flushed (c : Dev nD) (t : Fin cfg0.N) :
    (dat0 V c).flushed 2 t = ((cfg0.win 2).blk t).view.read (Elt Ideal)
      (prodArr (R := 100000) (K := 128) (N := 128) (V c main_arg0) (V c main_arg3)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  rw [pay0, blk_w]
  obtain ⟨-, -, -, -, e4, e5⟩ := idx t
  funext j
  show prodArr (R := 5000) (K := 128) (N := 128) (iblk0 V c 0 t) (V c main_arg3) j
    = prodArr (R := 100000) (K := 128) (N := 128) (V c main_arg0) (V c main_arg3) (((cfg0.win 2).blk t).view.emb j)
  refine prodArr_block _ _ _ (5000 * t.val) j _ ?_ ?_ (fun u z h0 h1 => blk_x V c t u z h0 h1)
  · show win0_2.index t (0 : Fin 2) * 5000 + 1 * (j 0).val = 5000 * t.val + (j 0).val; omega
  · show win0_2.index t (1 : Fin 2) * 128 + 1 * (j 1).val = (j 1).val; omega

/-- An index of the output is in point `t`'s block iff its coordinates are in the block's ranges. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every index of the output is in the block of the point its row falls in. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by show (i 0).val / 5000 < 20; omega
  obtain ⟨-, -, -, -, e4, e5⟩ := idx ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- THE PROJECTED TABLE after the region: the product of the node features and the first weight as the region found
    them. -/
theorem value (c : Dev nD) :
    (dat0 V c).arrAt 2 cfg0.N = prodArr (R := 100000) (K := 128) (N := 128) (V c main_arg0) (V c main_arg3) :=
  (dat0 V c).arrAt_eq_of_cover 2 _ (fun t _ => flushed V c t) cover

end Cert.KernelIdeal.Stage0

end
-- ==== Proof.Stage1.lean ====
/-
  The edge stage as a function of whole arrays.

  The second region walks 128 blocks of 5000 edges; at each it reads the block's rows of the gathered projected table and
  of the radial features, and the whole of the two filter weights and the three one-row biases, and writes the edge stage
  of those rows back to the same rows of its output.  A row of the edge stage depends on the same row of its two
  row-indexed operands only, so row `e` of the output is row `e` of the edge stage of the whole arrays; the point
  covering row `e` is `e / 5000`.  Stated for any contents `V` of the buffers at the region's entry.
-/
import proofs.«168823_j89567247990894_2_alg».proof.Proof.Layers
import proofs.«168823_j89567247990894_2_alg».proof.Proof.Gen.KernelIdeal.Frame

set_option maxRecDepth 16384

noncomputable section

open scoped BigOperators

namespace Cert.KernelIdeal.Stage1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.DenseRow Cert.RowBias

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the two row-indexed operands' and the output's blocks are block `t` of the rows, every
    other operand's block is the whole operand. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem idx_out : ∀ t : Fin cfg1.N, win1_7.index t (0 : Fin 2) = t.val ∧ win1_7.index t (1 : Fin 2) = 0 :=
  (by decide +kernel : ∀ t : Fin grid1.N, _)

/-- Window 0's block at point `t` is its array read `5000 t` rows down. -/
theorem blk_xp (c : Dev nD) (t : Fin cfg1.N) (u : S5000x128.Idx) (z : S640000x128.Idx)
    (h0 : (z 0).val = 5000 * t.val + (u 0).val) (h1 : (z 1).val = (u 1).val) :
    iblk1 V c 0 t u = V c main_v11 z := by
  have e := idx t
  show V c main_v11 (((cfg1.win 0).blk t).view.emb u) = V c main_v11 z
  congr 1
  funext a; apply Fin.ext
  match a with
  | ⟨0, _⟩ => show win1_0.index t (0 : Fin 2) * 5000 + 1 * (u 0).val = (z 0).val; omega
  | ⟨1, _⟩ => show win1_0.index t (1 : Fin 2) * 128 + 1 * (u 1).val = (z 1).val; omega

/-- Window 1's block at point `t` is its array read `5000 t` rows down. -/
theorem blk_rbf (c : Dev nD) (t : Fin cfg1.N) (u : S5000x16.Idx) (z : S640000x16.Idx)
    (h0 : (z 0).val = 5000 * t.val + (u 0).val) (h1 : (z 1).val = (u 1).val) :
    iblk1 V c 1 t u = V c main_arg2 z := by
  have e := idx t
  show V c main_arg2 (((cfg1.win 1).blk t).view.emb u) = V c main_arg2 z
  congr 1
  funext a; apply Fin.ext
  match a with
  | ⟨0, _⟩ => show win1_1.index t (0 : Fin 2) * 5000 + 1 * (u 0).val = (z 0).val; omega
  | ⟨1, _⟩ => show win1_1.index t (1 : Fin 2) * 16 + 1 * (u 1).val = (z 1).val; omega

/-- Window 2's block at every point is its whole array. -/
theorem blk_b1 (c : Dev nD) (t : Fin cfg1.N) : iblk1 V c 2 t = V c main_v12 := by
  have e := idx t
  funext u
  show V c main_v12 (((cfg1.win 2).blk t).view.emb u) = V c main_v12 u
  congr 1
  funext a; apply Fin.ext
  match a with
  | ⟨0, _⟩ => show win1_2.index t (0 : Fin 2) * 1 + 1 * (u 0).val = (u 0).val; omega
  | ⟨1, _⟩ => show win1_2.index t (1 : Fin 2) * 128 + 1 * (u 1).val = (u 1).val; omega

/-- Window 3's block at every point is its whole array. -/
theorem blk_wf1 (c : Dev nD) (t : Fin cfg1.N) : iblk1 V c 3 t = V c main_arg5 := by
  have e := idx t
  funext u
  show V c main_arg5 (((cfg1.win 3).blk t).view.emb u) = V c main_arg5 u
  congr 1
  funext a; apply Fin.ext
  match a with
  | ⟨0, _⟩ => show win1_3.index t (0 : Fin 2) * 16 + 1 * (u 0).val = (u 0).val; omega
  | ⟨1, _⟩ => show win1_3.index t (1 : Fin 2) * 128 + 1 * (u 1).val = (u 1).val; omega

/-- Window 4's block at every point is its whole array. -/
theorem blk_bf1 (c : Dev nD) (t : Fin cfg1.N) : iblk1 V c 4 t = V c main_v13 := by
  have e := idx t
  funext u
  show V c main_v13 (((cfg1.win 4).blk t).view.emb u) = V c main_v13 u
  congr 1
  funext a; apply Fin.ext
  match a with
  | ⟨0, _⟩ => show win1_4.index t (0 : Fin 2) * 1 + 1 * (u 0).val = (u 0).val; omega
  | ⟨1, _⟩ => show win1_4.index t (1 : Fin 2) * 128 + 1 * (u 1).val = (u 1).val; omega

/-- Window 5's block at every point is its whole array. -/
theorem blk_wf2 (c : Dev nD) (t : Fin cfg1.N) : iblk1 V c 5 t = V c main_arg7 := by
  have e := idx t
  funext u
  show V c main_arg7 (((cfg1.win 5).blk t).view.emb u) = V c main_arg7 u
  congr 1
  funext a; apply Fin.ext
  match a with
  | ⟨0, _⟩ => show win1_5.index t (0 : Fin 2) * 128 + 1 * (u 0).val = (u 0).val; omega
  | ⟨1, _⟩ => show win1_5.index t (1 : Fin 2) * 128 + 1 * (u 1).val = (u 1).val; omega

/-- Window 6's block at every point is its whole array. -/
theorem blk_bf2 (c : Dev nD) (t : Fin cfg1.N) : iblk1 V c 6 t = V c main_v14 := by
  have e := idx t
  funext u
  show V c main_v14 (((cfg1.win 6).blk t).view.emb u) = V c main_v14 u
  congr 1
  funext a; apply Fin.ext
  match a with
  | ⟨0, _⟩ => show win1_6.index t (0 : Fin 2) * 1 + 1 * (u 0).val = (u 0).val; omega
  | ⟨1, _⟩ => show win1_6.index t (1 : Fin 2) * 128 + 1 * (u 1).val = (u 1).val; omega

/-- What point `t` writes back is block `t` of the edge stage of the whole arrays. -/
theorem flushed (c : Dev nD) (t : Fin cfg1.N) :
    (dat1 V c).flushed 7 t = ((cfg1.win 7).blk t).view.read (Elt Ideal)
      (edgeArr (R := 640000) (V c main_v11) (V c main_arg2) (V c main_v12) (V c main_arg5) (V c main_v13) (V c main_arg7)
        (V c main_v14)) := by
  show (cfg1.win 7).cut (grid1.coords t) ((dat1 V c).after 7 t) = _
  rw [after1_7]
  unfold out1_7
  rw [View.canon_unit_zero off_zero]
  simp only [View.ld_unit_zero (S := S5000x128) off_zero, View.ld_unit_zero (S := S5000x16) off_zero,
    View.ld_unit_zero (S := S16x128) off_zero, View.ld_unit_zero (S := S128x128) off_zero,
    View.ld_unit_zero (S := S1x128) off_zero]
  rw [pay1, blk_b1, blk_wf1, blk_bf1, blk_wf2, blk_bf2]
  have e := idx_out t
  funext j
  show edgeArr (R := 5000) (iblk1 V c 0 t) (iblk1 V c 1 t) (V c main_v12) (V c main_arg5) (V c main_v13) (V c main_arg7)
      (V c main_v14) j
    = edgeArr (R := 640000) (V c main_v11) (V c main_arg2) (V c main_v12) (V c main_arg5) (V c main_v13) (V c main_arg7)
      (V c main_v14) (((cfg1.win 7).blk t).view.emb j)
  refine edgeArr_block _ _ _ _ _ _ _ _ _ (5000 * t.val) j _ ?_ ?_ (fun u z h0 h1 => blk_xp V c t u z h0 h1)
    (fun u z h0 h1 => blk_rbf V c t u z h0 h1)
  · show win1_7.index t (0 : Fin 2) * 5000 + 1 * (j 0).val = 5000 * t.val + (j 0).val; omega
  · show win1_7.index t (1 : Fin 2) * 128 + 1 * (j 1).val = (j 1).val; omega

/-- An index of the output is in point `t`'s block iff its coordinates are in the block's ranges. -/
theorem mem_blk (t : Fin cfg1.N) (i : S640000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v15).slice (win1_7.rect t)).set ↔ _
  rw [View.set_slice_whole, Rect.mem_set_unit]
  exact Iff.rfl

/-- Every index of the output is in the block of the point its row falls in. -/
theorem cover (i : S640000x128.Idx) :
    ∃ t : Fin cfg1.N, (cfg1.win 7).flush t = true ∧ i ∈ ((cfg1.win 7).blk t).view.set := by
  have hi0 : (i 0).val < 640000 := (i 0).isLt
  have hi1 : (i 1).val < 128 := (i 1).isLt
  have ht : (i 0).val / 5000 < cfg1.N := by show (i 0).val / 5000 < 128; omega
  have e := idx_out ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e.1]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e.2]; omega

/-- THE EDGE MESSAGES after the region: the edge stage of the region's operands as it found them. -/
theorem value (c : Dev nD) :
    (dat1 V c).arrAt 7 cfg1.N = edgeArr (R := 640000) (V c main_v11) (V c main_arg2) (V c main_v12) (V c main_arg5)
      (V c main_v13) (V c main_arg7) (V c main_v14) :=
  (dat1 V c).arrAt_eq_of_cover 7 _ (fun t _ => flushed V c t) cover

end Cert.KernelIdeal.Stage1

end
-- ==== Proof.Stage2.lean ====
/-
  The final linear layer as a function of whole arrays.

  The third region walks twenty blocks of 5000 rows of the aggregated node features; at each it applies the dense layer
  with the whole last weight and the one-row last bias to the block and writes the result back to the same rows of its
  output.  A row of a dense layer depends on the same row of its input only, so row `r` of the output is row `r` of the
  dense layer of the whole array; the point covering row `r` is `r / 5000`.  Stated for any contents `V` of the
  buffers at the region's entry.
-/
import proofs.«168823_j89567247990894_2_alg».proof.Proof.Layers
import proofs.«168823_j89567247990894_2_alg».proof.Proof.Gen.KernelIdeal.Frame

set_option maxRecDepth 16384

noncomputable section

open scoped BigOperators

namespace Cert.KernelIdeal.Stage2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.DenseRow Cert.RowBias

variable (V : (c : Dev nD) → (b : Ref sig .tc) → Buf (Elt Ideal) ((c : Thread nD τ).loc b))

theorem off_zero : (![0, 0] : Fin 2 → Nat) = fun _ => 0 := funext fun a => by fin_cases a <;> rfl

/-- The index maps over the grid: the input's and the output's blocks are block `t` of the rows, the weight's and the
    bias's blocks are the whole operand. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem idx_out : ∀ t : Fin cfg2.N, win2_3.index t (0 : Fin 2) = t.val ∧ win2_3.index t (1 : Fin 2) = 0 :=
  (by decide +kernel : ∀ t : Fin grid2.N, _)

/-- Window 0's block at point `t` is its array read `5000 t` rows down. -/
theorem blk_in (c : Dev nD) (t : Fin cfg2.N) (u : S5000x128.Idx) (z : S100000x128.Idx)
    (h0 : (z 0).val = 5000 * t.val + (u 0).val) (h1 : (z 1).val = (u 1).val) :
    iblk2 V c 0 t u = V c main_v18 z := by
  have e := idx t
  show V c main_v18 (((cfg2.win 0).blk t).view.emb u) = V c main_v18 z
  congr 1
  funext a; apply Fin.ext
  match a with
  | ⟨0, _⟩ => show win2_0.index t (0 : Fin 2) * 5000 + 1 * (u 0).val = (z 0).val; omega
  | ⟨1, _⟩ => show win2_0.index t (1 : Fin 2) * 128 + 1 * (u 1).val = (z 1).val; omega

/-- Window 1's block at every point is its whole array. -/
theorem blk_w (c : Dev nD) (t : Fin cfg2.N) : iblk2 V c 1 t = V c main_arg9 := by
  have e := idx t
  funext u
  show V c main_arg9 (((cfg2.win 1).blk t).view.emb u) = V c main_arg9 u
  congr 1
  funext a; apply Fin.ext
  match a with
  | ⟨0, _⟩ => show win2_1.index t (0 : Fin 2) * 128 + 1 * (u 0).val = (u 0).val; omega
  | ⟨1, _⟩ => show win2_1.index t (1 : Fin 2) * 128 + 1 * (u 1).val = (u 1).val; omega

/-- Window 2's block at every point is its whole array. -/
theorem blk_b (c : Dev nD) (t : Fin cfg2.N) : iblk2 V c 2 t = V c main_v19 := by
  have e := idx t
  funext u
  show V c main_v19 (((cfg2.win 2).blk t).view.emb u) = V c main_v19 u
  congr 1
  funext a; apply Fin.ext
  match a with
  | ⟨0, _⟩ => show win2_2.index t (0 : Fin 2) * 1 + 1 * (u 0).val = (u 0).val; omega
  | ⟨1, _⟩ => show win2_2.index t (1 : Fin 2) * 128 + 1 * (u 1).val = (u 1).val; omega

/-- What point `t` writes back is block `t` of the dense layer of the whole arrays. -/
theorem flushed (c : Dev nD) (t : Fin cfg2.N) :
    (dat2 V c).flushed 3 t = ((cfg2.win 3).blk t).view.read (Elt Ideal)
      (layerArr (R := 100000) (K := 128) (N := 128) (V c main_v18) (V c main_arg9) (unrow (V c main_v19))) := by
  show (cfg2.win 3).cut (grid2.coords t) ((dat2 V c).after 3 t) = _
  rw [after2_3]
  unfold out2_3
  rw [View.canon_unit_zero off_zero]
  simp only [View.ld_unit_zero (S := S5000x128) off_zero, View.ld_unit_zero (S := S128x128) off_zero,
    View.ld_unit_zero (S := S1x128) off_zero]
  rw [pay2, blk_w, blk_b]
  have e := idx_out t
  funext j
  show layerArr (R := 5000) (K := 128) (N := 128) (iblk2 V c 0 t) (V c main_arg9) (unrow (V c main_v19)) j
    = layerArr (R := 100000) (K := 128) (N := 128) (V c main_v18) (V c main_arg9) (unrow (V c main_v19))
      (((cfg2.win 3).blk t).view.emb j)
  refine layerArr_block _ _ _ _ (5000 * t.val) j _ ?_ ?_ (fun u z h0 h1 => blk_in V c t u z h0 h1)
  · show win2_3.index t (0 : Fin 2) * 5000 + 1 * (j 0).val = 5000 * t.val + (j 0).val; omega
  · show win2_3.index t (1 : Fin 2) * 128 + 1 * (j 1).val = (j 1).val; omega

/-- An index of the output is in point `t`'s block iff its coordinates are in the block's ranges. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v20).slice (win2_3.rect t)).set ↔ _
  rw [View.set_slice_whole, Rect.mem_set_unit]
  exact Iff.rfl

/-- Every index of the output is in the block of the point its row falls in. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 5000 < cfg2.N := by show (i 0).val / 5000 < 20; omega
  have e := idx_out ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e.1]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e.2]; omega

/-- THE RESULT after the region: the dense layer of the region's operands as it found them. -/
theorem value (c : Dev nD) :
    (dat2 V c).arrAt 3 cfg2.N = layerArr (R := 100000) (K := 128) (N := 128) (V c main_v18) (V c main_arg9)
      (unrow (V c main_v19)) :=
  (dat2 V c).arrAt_eq_of_cover 3 _ (fun t _ => flushed V c t) cover

end Cert.KernelIdeal.Stage2

end
-- ==== Proof.Fold.lean ====
/-
  The last boundary's contents at the result's buffer, read back to the launch memory.

  The program's buffers change only where a segment writes: a host stretch writes its operations' results, a region
  writes its output array.  Reading back from the result: the final linear layer of (the segment sum, by the
  destination column, of the edge stage of (the row gather, by the normalised source column, of the projected table),
  the radial features, the filter weights and the biases laid out as one row), the last weight and the last bias
  laid out as one row; the projected table is the product of the node features and the first weight.  The argument
  arrays are written by no segment, so every read of one walks back to the launch memory.
-/
import proofs.«168823_j89567247990894_2_alg».proof.Proof.Stage0
import proofs.«168823_j89567247990894_2_alg».proof.Proof.Stage1
import proofs.«168823_j89567247990894_2_alg».proof.Proof.Stage2
import Idealize.ShloMosaic.Lib.StableHlo.Run
import Idealize.ShloMosaic.PureOps.Ideal

set_option maxRecDepth 16384

noncomputable section

open scoped BigOperators

namespace Cert.KernelIdeal.Fold

open Idealize.ShloMosaic Idealize.ShloMosaic.TcCoe Idealize.ShloMosaic.StableHlo Idealize.ShloMosaic.ValueIdx Idealize.SL.Sem
open Cert.KernelIdeal Cert.KernelIdeal.Gen Cert.Layers Cert.DenseRow Cert.RowBias
open Cert.KernelIdeal.RegionValue (prodArr)

/-- Row `r` of the edge list as a vector of edges. -/
def edgeVec0 (ei : IVec S2x640000 32) : IVec S640000 32 :=
  shapeCast S640000 (extractStridedSlice S1x640000 ![0, 0] ei slices_S2x640000_S1x640000_0_0) shapeCasts_S1x640000_S640000
def edgeVec1 (ei : IVec S2x640000 32) : IVec S640000 32 :=
  shapeCast S640000 (extractStridedSlice S1x640000 ![1, 0] ei slices_S2x640000_S1x640000_1_0) shapeCasts_S1x640000_S640000

/-- The destination column: the destinations as an index column. -/
def rowIdx (ei : IVec S2x640000 32) : IVec S640000x1 32 :=
  broadcastInDim S640000x1 ![0] bcast_S640000_S640000x1_0 (edgeVec0 ei)

/-- The source column: the sources, a negative one moved up by the number of nodes, as an index column. -/
def colIdx (ei : IVec S2x640000 32) : IVec S640000x1 32 :=
  broadcastInDim S640000x1 ![0] bcast_S640000_S640000x1_0
    (select (cmpi .slt (edgeVec1 ei) (broadcastInDim S640000 ![] bcast_S_S640000 (constantI S_ 32 0#32)))
      (addi (edgeVec1 ei) (broadcastInDim S640000 ![] bcast_S_S640000 (constantI S_ 32 100000#32))) (edgeVec1 ei))

/-- The zero array the segment sum starts from. -/
def zeroArr : FVec Ideal S100000x128 .f32 :=
  broadcastInDim S100000x128 ![] bcast_S_S100000x128 (constant (F := Ideal) S_ .f32 0x00000000#32)

/-- A vector laid out as one row. -/
def asRow (b : FVec Ideal S128 .f32) : FVec Ideal S1x128 .f32 := shapeCast S1x128 b shapeCasts_S128_S1x128

variable (m : (ℓ : Loc nD τ sig) → Buf (Elt Ideal) ℓ) (ρ : Dev nD → PrngReg)

/-! ## Buffers no segment writes -/

theorem W1_keep_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W1_keep_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem W2_keep_v1 (c : Dev nD) : W2 m ρ c (Proc.devRef .tc main_v1) = W1 m ρ c (Proc.devRef .tc main_v1) :=
  W2_of_ne m ρ c main_v1 (by decide)
theorem W2_keep_v3 (c : Dev nD) : W2 m ρ c (Proc.devRef .tc main_v3) = W1 m ρ c (Proc.devRef .tc main_v3) :=
  W2_of_ne m ρ c main_v3 (by decide)
theorem W2_keep_arg2 (c : Dev nD) : W2 m ρ c (Proc.devRef .tc main_arg2) = W1 m ρ c (Proc.devRef .tc main_arg2) :=
  W2_of_ne m ρ c main_arg2 (by decide)
theorem W2_keep_arg4 (c : Dev nD) : W2 m ρ c (Proc.devRef .tc main_arg4) = W1 m ρ c (Proc.devRef .tc main_arg4) :=
  W2_of_ne m ρ c main_arg4 (by decide)
theorem W2_keep_arg5 (c : Dev nD) : W2 m ρ c (Proc.devRef .tc main_arg5) = W1 m ρ c (Proc.devRef .tc main_arg5) :=
  W2_of_ne m ρ c main_arg5 (by decide)
theorem W2_keep_arg6 (c : Dev nD) : W2 m ρ c (Proc.devRef .tc main_arg6) = W1 m ρ c (Proc.devRef .tc main_arg6) :=
  W2_of_ne m ρ c main_arg6 (by decide)
theorem W2_keep_arg7 (c : Dev nD) : W2 m ρ c (Proc.devRef .tc main_arg7) = W1 m ρ c (Proc.devRef .tc main_arg7) :=
  W2_of_ne m ρ c main_arg7 (by decide)
theorem W2_keep_arg8 (c : Dev nD) : W2 m ρ c (Proc.devRef .tc main_arg8) = W1 m ρ c (Proc.devRef .tc main_arg8) :=
  W2_of_ne m ρ c main_arg8 (by decide)
theorem W2_keep_arg9 (c : Dev nD) : W2 m ρ c (Proc.devRef .tc main_arg9) = W1 m ρ c (Proc.devRef .tc main_arg9) :=
  W2_of_ne m ρ c main_arg9 (by decide)
theorem W2_keep_arg10 (c : Dev nD) : W2 m ρ c (Proc.devRef .tc main_arg10) = W1 m ρ c (Proc.devRef .tc main_arg10) :=
  W2_of_ne m ρ c main_arg10 (by decide)

theorem W3_keep_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W3_keep_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W3_keep_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W3_keep_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W3_keep_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem W3_keep_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem W4_keep_v1 (c : Dev nD) : W4 m ρ c (Proc.devRef .tc main_v1) = W3 m ρ c (Proc.devRef .tc main_v1) :=
  W4_of_ne m ρ c main_v1 (by decide)
theorem W4_keep_arg9 (c : Dev nD) : W4 m ρ c (Proc.devRef .tc main_arg9) = W3 m ρ c (Proc.devRef .tc main_arg9) :=
  W4_of_ne m ρ c main_arg9 (by decide)
theorem W4_keep_arg10 (c : Dev nD) : W4 m ρ c (Proc.devRef .tc main_arg10) = W3 m ρ c (Proc.devRef .tc main_arg10) :=
  W4_of_ne m ρ c main_arg10 (by decide)

theorem W5_keep_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The first stretch and the projection -/

theorem W1_v1 (c : Dev nD) : W1 m ρ c (Proc.devRef .tc main_v1) = edgeVec0 (m ((c : Thread nD τ).loc main_arg1)) := by
  show StableHlo.after hostOps0 (W0 m ρ c) (Proc.devRef .tc main_v1) = _
  after_results
  rfl

theorem W1_v3 (c : Dev nD) : W1 m ρ c (Proc.devRef .tc main_v3) = edgeVec1 (m ((c : Thread nD τ).loc main_arg1)) := by
  show StableHlo.after hostOps0 (W0 m ρ c) (Proc.devRef .tc main_v3) = _
  after_results
  rfl

theorem V1_arg0 (c : Dev nD) : V1 m ρ c main_arg0 = m ((c : Thread nD τ).loc main_arg0) := W1_keep_arg0 m ρ c
theorem V1_arg3 (c : Dev nD) : V1 m ρ c main_arg3 = m ((c : Thread nD τ).loc main_arg3) := W1_keep_arg3 m ρ c

/-- The projected table: the product of the node features and the first weight. -/
theorem W2_v4 (c : Dev nD) : W2 m ρ c (Proc.devRef .tc main_v4)
    = prodArr (R := 100000) (K := 128) (N := 128) (m ((c : Thread nD τ).loc main_arg0)) (m ((c : Thread nD τ).loc main_arg3)) :=
  (W2_arr m ρ c 2).trans ((Stage0.value (V1 m ρ) c).trans (by rw [V1_arg0, V1_arg3]))

theorem W2_v3 (c : Dev nD) : W2 m ρ c (Proc.devRef .tc main_v3) = edgeVec1 (m ((c : Thread nD τ).loc main_arg1)) :=
  (W2_keep_v3 m ρ c).trans (W1_v3 m ρ c)
theorem W2_arg4 (c : Dev nD) : W2 m ρ c (Proc.devRef .tc main_arg4) = m ((c : Thread nD τ).loc main_arg4) :=
  (W2_keep_arg4 m ρ c).trans (W1_keep_arg4 m ρ c)
theorem W2_arg6 (c : Dev nD) : W2 m ρ c (Proc.devRef .tc main_arg6) = m ((c : Thread nD τ).loc main_arg6) :=
  (W2_keep_arg6 m ρ c).trans (W1_keep_arg6 m ρ c)
theorem W2_arg8 (c : Dev nD) : W2 m ρ c (Proc.devRef .tc main_arg8) = m ((c : Thread nD τ).loc main_arg8) :=
  (W2_keep_arg8 m ρ c).trans (W1_keep_arg8 m ρ c)

/-! ## The second stretch and the edge stage -/

theorem V3_v11 (c : Dev nD) : V3 m ρ c main_v11
    = Host.gather gather_S100000x128_S640000x1_S640000x128_1_0_n_n_0_1_1128
        (prodArr (R := 100000) (K := 128) (N := 128) (m ((c : Thread nD τ).loc main_arg0)) (m ((c : Thread nD τ).loc main_arg3))) (colIdx (m ((c : Thread nD τ).loc main_arg1))) := by
  show StableHlo.after hostOps1 (W2 m ρ c) (Proc.devRef .tc main_v11) = _
  after_results
  rw [W2_v4, W2_v3]
  rfl
theorem V3_v12 (c : Dev nD) : V3 m ρ c main_v12 = asRow (m ((c : Thread nD τ).loc main_arg4)) := by
  show StableHlo.after hostOps1 (W2 m ρ c) (Proc.devRef .tc main_v12) = _
  after_results
  rw [W2_arg4]
  rfl
theorem V3_v13 (c : Dev nD) : V3 m ρ c main_v13 = asRow (m ((c : Thread nD τ).loc main_arg6)) := by
  show StableHlo.after hostOps1 (W2 m ρ c) (Proc.devRef .tc main_v13) = _
  after_results
  rw [W2_arg6]
  rfl
theorem V3_v14 (c : Dev nD) : V3 m ρ c main_v14 = asRow (m ((c : Thread nD τ).loc main_arg8)) := by
  show StableHlo.after hostOps1 (W2 m ρ c) (Proc.devRef .tc main_v14) = _
  after_results
  rw [W2_arg8]
  rfl

theorem V3_arg2 (c : Dev nD) : V3 m ρ c main_arg2 = m ((c : Thread nD τ).loc main_arg2) :=
  (W3_keep_arg2 m ρ c).trans ((W2_keep_arg2 m ρ c).trans (W1_keep_arg2 m ρ c))
theorem V3_arg5 (c : Dev nD) : V3 m ρ c main_arg5 = m ((c : Thread nD τ).loc main_arg5) :=
  (W3_keep_arg5 m ρ c).trans ((W2_keep_arg5 m ρ c).trans (W1_keep_arg5 m ρ c))
theorem V3_arg7 (c : Dev nD) : V3 m ρ c main_arg7 = m ((c : Thread nD τ).loc main_arg7) :=
  (W3_keep_arg7 m ρ c).trans ((W2_keep_arg7 m ρ c).trans (W1_keep_arg7 m ρ c))

/-- The edge messages: the edge stage of the gathered projected rows, the radial features, the filter weights and the
    one-row biases. -/
theorem W4_v15 (c : Dev nD) : W4 m ρ c (Proc.devRef .tc main_v15)
    = edgeArr (R := 640000)
        (Host.gather gather_S100000x128_S640000x1_S640000x128_1_0_n_n_0_1_1128
          (prodArr (R := 100000) (K := 128) (N := 128) (m ((c : Thread nD τ).loc main_arg0)) (m ((c : Thread nD τ).loc main_arg3))) (colIdx (m ((c : Thread nD τ).loc main_arg1))))
        (m ((c : Thread nD τ).loc main_arg2)) (asRow (m ((c : Thread nD τ).loc main_arg4))) (m ((c : Thread nD τ).loc main_arg5)) (asRow (m ((c : Thread nD τ).loc main_arg6))) (m ((c : Thread nD τ).loc main_arg7)) (asRow (m ((c : Thread nD τ).loc main_arg8))) :=
  (W4_arr m ρ c 7).trans ((Stage1.value (V3 m ρ) c).trans (by
    rw [V3_v11, V3_arg2, V3_v12, V3_arg5, V3_v13, V3_arg7, V3_v14]))

theorem W4_v1 (c : Dev nD) : W4 m ρ c (Proc.devRef .tc main_v1) = edgeVec0 (m ((c : Thread nD τ).loc main_arg1)) :=
  (W4_keep_v1 m ρ c).trans ((W3_keep_v1 m ρ c).trans ((W2_keep_v1 m ρ c).trans (W1_v1 m ρ c)))
theorem W4_arg10 (c : Dev nD) : W4 m ρ c (Proc.devRef .tc main_arg10) = m ((c : Thread nD τ).loc main_arg10) :=
  (W4_keep_arg10 m ρ c).trans ((W3_keep_arg10 m ρ c).trans ((W2_keep_arg10 m ρ c).trans (W1_keep_arg10 m ρ c)))

/-! ## The third stretch and the final layer -/

theorem V5_v18 (c : Dev nD) : V5 m ρ c main_v18
    = Host.scatterAdd (F := Ideal) (φ := .f32) scatter_S100000x128_S640000x1_S640000x128_1_0_0_1 zeroArr (rowIdx (m ((c : Thread nD τ).loc main_arg1)))
        (edgeArr (R := 640000)
          (Host.gather gather_S100000x128_S640000x1_S640000x128_1_0_n_n_0_1_1128
            (prodArr (R := 100000) (K := 128) (N := 128) (m ((c : Thread nD τ).loc main_arg0)) (m ((c : Thread nD τ).loc main_arg3))) (colIdx (m ((c : Thread nD τ).loc main_arg1))))
          (m ((c : Thread nD τ).loc main_arg2)) (asRow (m ((c : Thread nD τ).loc main_arg4))) (m ((c : Thread nD τ).loc main_arg5)) (asRow (m ((c : Thread nD τ).loc main_arg6))) (m ((c : Thread nD τ).loc main_arg7)) (asRow (m ((c : Thread nD τ).loc main_arg8)))) := by
  show StableHlo.after hostOps2 (W4 m ρ c) (Proc.devRef .tc main_v18) = _
  after_results
  rw [W4_v1, W4_v15]
  rfl

theorem V5_v19 (c : Dev nD) : V5 m ρ c main_v19 = asRow (m ((c : Thread nD τ).loc main_arg10)) := by
  show StableHlo.after hostOps2 (W4 m ρ c) (Proc.devRef .tc main_v19) = _
  after_results
  rw [W4_arg10]
  rfl

theorem V5_arg9 (c : Dev nD) : V5 m ρ c main_arg9 = m ((c : Thread nD τ).loc main_arg9) :=
  (W5_keep_arg9 m ρ c).trans ((W4_keep_arg9 m ρ c).trans ((W3_keep_arg9 m ρ c).trans ((W2_keep_arg9 m ρ c).trans
    (W1_keep_arg9 m ρ c))))

/-- THE RESULT at the last boundary, as a function of the launch memory's argument arrays. -/
theorem result (c : Dev nD) : W6 m ρ c (Proc.devRef .tc main_v20)
    = layerArr (R := 100000) (K := 128) (N := 128)
        (Host.scatterAdd (F := Ideal) (φ := .f32) scatter_S100000x128_S640000x1_S640000x128_1_0_0_1 zeroArr (rowIdx (m ((c : Thread nD τ).loc main_arg1)))
          (edgeArr (R := 640000)
            (Host.gather gather_S100000x128_S640000x1_S640000x128_1_0_n_n_0_1_1128
              (prodArr (R := 100000) (K := 128) (N := 128) (m ((c : Thread nD τ).loc main_arg0)) (m ((c : Thread nD τ).loc main_arg3))) (colIdx (m ((c : Thread nD τ).loc main_arg1))))
            (m ((c : Thread nD τ).loc main_arg2)) (asRow (m ((c : Thread nD τ).loc main_arg4))) (m ((c : Thread nD τ).loc main_arg5)) (asRow (m ((c : Thread nD τ).loc main_arg6))) (m ((c : Thread nD τ).loc main_arg7)) (asRow (m ((c : Thread nD τ).loc main_arg8)))))
        (m ((c : Thread nD τ).loc main_arg9)) (unrow (asRow (m ((c : Thread nD τ).loc main_arg10)))) :=
  (W6_arr m ρ c 3).trans ((Stage2.value (V5 m ρ) c).trans (by rw [V5_v18, V5_arg9, V5_v19]))

end Cert.KernelIdeal.Fold

end
-- ==== Proof.RefSide.lean ====
/-
  The reference's result as a function of whole arrays, at the ideal values.

  The reference is a straight line of host operations: the filter network on the edges' radial features (a dense layer,
  `silu` written out as `y * (1 / (1 + exp (-y)))`, a second dense layer), a row gather of the node features by the
  source column followed by a dense layer, the product of the two, a segment sum over the destination column, and a last
  dense layer.  Each `dot_general` plus its bias broadcast first to one row and then over the rows is a dense layer, and
  jax's expansion of `silu` is `y * logistic y` entry by entry, `logistic` being by definition that expansion on the
  extended reals and the literal `1.0` denoting the real number one.  So the result is the last dense layer of the
  segment sum of (the dense layer of the gathered rows) times (the filter).
-/
import proofs.«168823_j89567247990894_2_alg».proof.Proof.Gen.ReferenceIdeal.Run
import proofs.«168823_j89567247990894_2_alg».proof.Proof.Gen.ReferenceIdeal.Read
import proofs.«168823_j89567247990894_2_alg».proof.Proof.Layers
import Idealize.ShloMosaic.Lib.IdealHost

set_option maxRecDepth 16384

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.Layers Cert.DenseRow Cert.PlainDot

/-- The host's dense layer over a program's record of the plain matrix product. -/
theorem hlayer_of {R K N : ℕ} (d : DotDims ⟨2, ![R, K]⟩ ⟨2, ![K, N]⟩ ⟨2, ![R, N]⟩) (hd : d = DotDims.plain R K N)
    (a : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d none a w) (broadcastInDim ⟨2, ![R, N]⟩ ![0, 1] h2 (broadcastInDim ⟨2, ![1, N]⟩ ![1] h1 b))
      = layerArr a w b := by
  subst hd
  exact hlayer R K N none a w b h1 h2

/-- jax's expansion of `silu` on the host, `y * (1 / (1 + exp (-y)))` with the literal `1.0` broadcast from a scalar, is
    `y * logistic y` entry by entry. -/
theorem hsilu {s : Shape} (y : FVec Ideal s .f32) (h h' : (⟨0, ![]⟩ : Shape).BroadcastsInDim s ![]) :
    mulf y (Host.divf (broadcastInDim s ![] h (constant (F := Ideal) ⟨0, ![]⟩ .f32 0x3F800000#32))
        (addf (broadcastInDim s ![] h' (constant (F := Ideal) ⟨0, ![]⟩ .f32 0x3F800000#32)) (Host.exp (Host.negf y))))
      = siluArr y := by
  funext i
  show y i * Ideal.div (Ideal.ofBits .f32 0x3F800000#32) (Ideal.ofBits .f32 0x3F800000#32 + Ideal.exp (-(y i)))
    = y i * Ideal.logistic (y i)
  rw [Ideal.ofBits_one_f32]
  rfl

/-- THE REFERENCE'S RESULT as the last dense layer of the segment sum of the product of the projected gathered rows and
    the filter. -/
theorem value (x0 : (⟨S100000x128, .f32⟩ : BufTy).Contents (Elt Ideal)) (x1 : (⟨S2x640000, .i32⟩ : BufTy).Contents (Elt Ideal))
    (x2 : (⟨S640000x16, .f32⟩ : BufTy).Contents (Elt Ideal)) (x3 : (⟨S128x128, .f32⟩ : BufTy).Contents (Elt Ideal))
    (x4 : (⟨S128, .f32⟩ : BufTy).Contents (Elt Ideal)) (x5 : (⟨S16x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) :
    val_main_v31 (F := Ideal) x0 x1 x2 x3 x4 x5 x6 x7 x8 x9 x10
      = layerArr (R := 100000) (K := 128) (N := 128)
          (Host.scatterAdd (F := Ideal) (φ := .f32) scatter_S100000x128_S640000x1_S640000x128_1_0_0_1 (val_main_v25 (F := Ideal))
            (val_main_v26 (F := Ideal) x1)
            (mulArr (layerArr (R := 640000) (K := 128) (N := 128) (val_main_v19 (F := Ideal) x0 x1) x3 x4)
              (filterArr (R := 640000) x2 x5 x6 x7 x8)))
          x9 x10 := by
  unfold val_main_v31 val_main_v30 val_main_v29 val_main_v28
  rw [hlayer_of (R := 100000) (K := 128) (N := 128) dot_S100000x128_S128x128_S100000x128_1_0_0_1_n_n rfl]
  unfold val_main_v27 val_main_v24 val_main_v23 val_main_v22 val_main_v21 val_main_v20 val_main_v12 val_main_v11
    val_main_v10 val_main_v9
  rw [hlayer_of (R := 640000) (K := 128) (N := 128) dot_S640000x128_S128x128_S640000x128_1_0_0_1_n_n rfl,
    hlayer_of (R := 640000) (K := 128) (N := 128) dot_S640000x128_S128x128_S640000x128_1_0_0_1_n_n rfl]
  unfold val_main_v8 val_main_call0_v5 val_main_call0_v4 val_main_call0_cst_0 val_main_call0_v3 val_main_call0_v2
    val_main_call0_cst val_main_call0_v1 val_main_call0_v0 val_main_v7 val_main_v6 val_main_v5 val_main_v4
  rw [hlayer_of (R := 640000) (K := 16) (N := 128) dot_S640000x16_S16x128_S640000x128_1_0_0_1_n_n rfl, hsilu]
  rfl

end Cert.ReferenceIdeal.RefValue

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.Bridge.lean ====
/-
  The idealized kernel's result and the reference's result are one function of the argument arrays.

  Both end in the same dense layer of the same segment sum, so it is enough that the arrays summed agree: the kernel's
  edge stage of the row gather of the projected table, against the reference's product of (the dense layer of the row
  gather of the node features) and (the filter).  The filters are the same network of the same operands once a bias cast
  to one row is read back as a vector.  For the other factor: a row gather reads, for edge `e`, the row the source
  column names (clamped into the table), whatever the table holds; row `r` of the projected table is the product of row
  `r` of the node features and the first weight; so gathering the projected table is projecting the gathered rows, term by
  term of the same sum.  No sum is regrouped and nothing needs to be finite.
-/
import proofs.«168823_j89567247990894_2_alg».proof.Proof.Fold
import proofs.«168823_j89567247990894_2_alg».proof.Proof.RefSide
import proofs.«168823_j89567247990894_2_alg».proof.Proof.LibRowIndex

set_option maxRecDepth 16384

noncomputable section

open scoped BigOperators

namespace Cert.Bridge

open Idealize.ShloMosaic Idealize.ShloMosaic.ValueIdx
open Cert.Layers Cert.DenseRow Cert.RowBias Cert.RowIndex
open Cert.KernelIdeal.RegionValue (prodArr prodArr_apply)

/-- Gathering rows of a product and adding a one-row bias is the dense layer of the gathered rows. -/
theorem gather_project {N E : ℕ} (hN : 0 < N)
    (wf : GatherDims.WF ⟨2, ![N, 128]⟩ ⟨2, ![E, 1]⟩ ⟨2, ![E, 128]⟩ [1] [0] [] [0] [] 1 ![1, 128])
    (g : GatherDims ⟨2, ![N, 128]⟩ ⟨2, ![E, 1]⟩ ⟨2, ![E, 128]⟩) (hg : g = rowGatherDims N E 128 wf)
    (x : (⟨2, ![N, 128]⟩ : Shape).Idx → EReal) (w : (⟨2, ![128, 128]⟩ : Shape).Idx → EReal)
    (b : (⟨1, ![128]⟩ : Shape).Idx → EReal) (idx : IVec ⟨2, ![E, 1]⟩ 32)
    (hc : (⟨1, ![128]⟩ : Shape).ShapeCasts ⟨2, ![1, 128]⟩) :
    addRow (Host.gather g (prodArr x w) idx) (shapeCast ⟨2, ![1, 128]⟩ b hc) = layerArr (Host.gather g x idx) w b := by
  subst hg
  funext i
  obtain ⟨e, c, rfl⟩ : ∃ (e : Fin E) (c : Fin 128), i = ix2 e c := ⟨i 0, i 1, eq_ix2 i⟩
  show Host.gather (rowGatherDims N E 128 wf) (prodArr x w) idx (ix2 e c) + shapeCast ⟨2, ![1, 128]⟩ b hc (ix2 (0 : Fin 1) c)
    = layer (fun k => Host.gather (rowGatherDims N E 128 wf) x idx (ix2 e k)) (fun k j => w (ix2 k j)) (fun j => b (ix1 j)) c
  rw [rowGather_apply hN, shapeCast_a_1a_apply]
  simp only [rowGather_apply hN]
  rfl

open Cert.KernelIdeal.Fold in
/-- THE TWO RESULTS AGREE: the kernel's result, read back to its argument arrays, is the reference's last stage of the
    same arrays. -/
theorem kernel_eq_reference (x0 : FVec Ideal Cert.KernelIdeal.S100000x128 .f32) (x1 : IVec Cert.KernelIdeal.S2x640000 32)
    (x2 : FVec Ideal Cert.KernelIdeal.S640000x16 .f32) (x3 : FVec Ideal Cert.KernelIdeal.S128x128 .f32)
    (x4 : FVec Ideal Cert.KernelIdeal.S128 .f32) (x5 : FVec Ideal Cert.KernelIdeal.S16x128 .f32)
    (x6 : FVec Ideal Cert.KernelIdeal.S128 .f32) (x7 : FVec Ideal Cert.KernelIdeal.S128x128 .f32)
    (x8 : FVec Ideal Cert.KernelIdeal.S128 .f32) (x9 : FVec Ideal Cert.KernelIdeal.S128x128 .f32)
    (x10 : FVec Ideal Cert.KernelIdeal.S128 .f32) :
    layerArr (R := 100000) (K := 128) (N := 128)
        (Host.scatterAdd (F := Ideal) (φ := .f32) Cert.KernelIdeal.scatter_S100000x128_S640000x1_S640000x128_1_0_0_1 zeroArr (rowIdx x1)
          (edgeArr (R := 640000)
            (Host.gather Cert.KernelIdeal.gather_S100000x128_S640000x1_S640000x128_1_0_n_n_0_1_1128
              (prodArr (R := 100000) (K := 128) (N := 128) x0 x3) (colIdx x1))
            x2 (asRow x4) x5 (asRow x6) x7 (asRow x8)))
        x9 (unrow (asRow x10))
      = Cert.ReferenceIdeal.Read.val_main_v31 (F := Ideal) x0 x1 x2 x3 x4 x5 x6 x7 x8 x9 x10 := by
  rw [Cert.ReferenceIdeal.RefValue.value]
  have hE : edgeArr (R := 640000)
        (Host.gather Cert.KernelIdeal.gather_S100000x128_S640000x1_S640000x128_1_0_n_n_0_1_1128
          (prodArr (R := 100000) (K := 128) (N := 128) x0 x3) (colIdx x1))
        x2 (asRow x4) x5 (asRow x6) x7 (asRow x8)
      = mulArr (layerArr (R := 640000) (K := 128) (N := 128) (Cert.ReferenceIdeal.Read.val_main_v19 (F := Ideal) x0 x1) x3 x4)
          (filterArr (R := 640000) x2 x5 x6 x7 x8) := by
    unfold edgeArr asRow
    rw [unrow_cast, unrow_cast,
      gather_project (N := 100000) (E := 640000) (by decide) _ Cert.KernelIdeal.gather_S100000x128_S640000x1_S640000x128_1_0_n_n_0_1_1128 rfl]
    rfl
  rw [hE]
  unfold asRow
  rw [unrow_cast]
  rfl

end Cert.Bridge

end
-- ==== Proof.lean ====
/-
  The certificate of a message-passing layer (continuous-filter convolution) over 100000 nodes and 640000 edges.

  The kernel projects the node features once per node (a product with the first weight, on blocks of 5000 rows), gathers
  the projected rows by the edges' source column, forms on blocks of 5000 edges the edge stage
  `(xp + b1) * (silu (rbf · Wf1 + bf1) · Wf2 + bf2)`, sums the messages into their destination nodes, and applies the
  last dense layer on blocks of 5000 rows.  The reference gathers the node features first and projects the gathered rows.
  At the ideal values the two agree: a block of rows of each stage is the stage on the block, so each region leaves its
  whole-array stage; a row gather commutes with a product on the right; the format changes are the identity; `silu`'s two
  spellings are one function on the extended reals.  No sum is regrouped, so the inputs' finiteness is not used.

  The three frames: the two kernel programs by their generated frame certificates, the reference by its generated run.
  The idealization rewrote no operation, so there is nothing to preserve.  The algebraic claim: the kernel's run with its
  result named, read back to the argument arrays and identified with the reference's last stage; the reference's run with
  the agreement of the arguments rewritten.
-/
import proofs.«168823_j89567247990894_2_alg».proof.Defs
import proofs.«168823_j89567247990894_2_alg».proof.Proof.Gen.Kernel
import proofs.«168823_j89567247990894_2_alg».proof.Proof.Gen.Kernel.Frame
import proofs.«168823_j89567247990894_2_alg».proof.Proof.Gen.KernelIdeal
import proofs.«168823_j89567247990894_2_alg».proof.Proof.Gen.KernelIdeal.Frame
import proofs.«168823_j89567247990894_2_alg».proof.Proof.Gen.ReferenceIdeal
import proofs.«168823_j89567247990894_2_alg».proof.Proof.Gen.ReferenceIdeal.Run
import proofs.«168823_j89567247990894_2_alg».proof.Proof.Gen.ReferenceIdeal.Read
import proofs.«168823_j89567247990894_2_alg».proof.Proof.Gen.Pre_finite_inputs
import proofs.«168823_j89567247990894_2_alg».proof.Proof.KernelRun
import proofs.«168823_j89567247990894_2_alg».proof.Proof.Fold
import proofs.«168823_j89567247990894_2_alg».proof.Proof.RefSide
import proofs.«168823_j89567247990894_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The idealized kernel's run, its result at the reference's last stage of the kernel's own argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v20)
          = Cert.ReferenceIdeal.Read.val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5))
              (m ((c.tc : Thread Cert.KernelIdeal.nD Cert.KernelIdeal.τ).loc Cert.KernelIdeal.main_arg6)) (m ((c.tc : Thread Cert.KernelIdeal.nD Cert.KernelIdeal.τ).loc Cert.KernelIdeal.main_arg7))
              (m ((c.tc : Thread Cert.KernelIdeal.nD Cert.KernelIdeal.τ).loc Cert.KernelIdeal.main_arg8)) (m ((c.tc : Thread Cert.KernelIdeal.nD Cert.KernelIdeal.τ).loc Cert.KernelIdeal.main_arg9))
              (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono
    (fun r h c => ⟨(h c).1.trans ((Cert.KernelIdeal.Fold.result m ρ c).trans (Cert.Bridge.kernel_eq_reference _ _ _ _ _ _ _ _ _ _ _)),
      (h c).2⟩)
    (Cert.KernelIdeal.Result.run (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both idealized programs end with the reference's last stage of the shared argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  exact Cert.ReferenceIdeal.Read.val_main_v31_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
